-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn_part1 {F : FTy → Type} [FloatOps F] (main_v13 : IVec S_ 1) (main_v16 : IVec S4x4096x512 1) : IVec S_ 1 :=
  let main_c_5 : IVec S_ 1 := constantI S_ 1 1#1
  let main_v17 : IVec S_ 1 := (fun x v => Host.reduce IntOp.andi x v reducesTo_S4x4096x512_S_d0_1_2 h_S_) main_v16 main_c_5
  let main_v18 : IVec S_ 1 := andi main_v13 main_v17
  main_v18

def fn {F : FTy → Type} [FloatOps F] (main_arg0 : FVec F S4x4096x512 .f32) (main_arg1 : FVec F S4x4096x512 .f32) (main_arg2 : FVec F S4x4096x512 .f32) (main_arg3 : FVec F S4x4096x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  let main_v14 : FVec F S4x4096x512 .f32 := Host.absf main_arg3
  let main_cst_4 : FVec F S_ .f32 := constant S_ .f32 0x7F800000#32
  let main_v15 : FVec F S4x4096x512 .f32 := broadcastInDim S4x4096x512 ![] bcast_S_S4x4096x512 main_cst_4
  let main_v16 : IVec S4x4096x512 1 := cmpf .olt main_v14 main_v15
  fn_part1 (F := F) main_v13 main_v16
-- ==== Kernel.lean ====
abbrev S4x4096x512 : Shape := ⟨3, ![4, 4096, 512]⟩
abbrev S1x512x512 : Shape := ⟨3, ![1, 512, 512]⟩
abbrev S1x512 : Shape := ⟨2, ![1, 512]⟩
abbrev S1x512x1 : Shape := ⟨3, ![1, 512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  reduces_S1x512x512_S1x512 : S1x512x512.Reduces [2] S1x512
  shapeCasts_S1x512_S1x512x1 : S1x512.ShapeCasts S1x512x1
  broadcasts_S1x512x1_S1x512x512 : S1x512x1.Broadcasts S1x512x512
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x512.size a
  hwx0_0 : ∀ i : grid0.Coords, EltTy.bits .f32 = 32 ∨ (Rect.block (s := S4x4096x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x512.size a
  hwx0_1 : ∀ i : grid0.Coords, EltTy.bits .f32 = 32 ∨ (Rect.block (s := S4x4096x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x4096x512.size a
  hwx0_2 : ∀ i : grid0.Coords, EltTy.bits .f32 = 32 ∨ (Rect.block (s := S4x4096x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x4096x512.size a
  hwx0_3 : ∀ i : grid0.Coords, EltTy.bits .f32 = 32 ∨ (Rect.block (s := S4x4096x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S4x4096x512.size a
  hwx0_4 : ∀ i : grid0.Coords, EltTy.bits .f32 = 32 ∨ (Rect.block (s := S4x4096x512) S1x512x512.size (cc0_transform_4 i) (hinb0_4 i)).WholeWords (EltTy.packing .f32)

variable [Facts₀]

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S_, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S4x4096x1, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x512, .f32⟩
  | .hbm, ⟨17, _⟩ => ⟨S4x4096x512, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x1, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x512, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x1, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096x512, .f32⟩
  | .hbm, ⟨46, _⟩ => ⟨S_, .f32⟩
  | .hbm, ⟨47, _⟩ => ⟨S4x4096, .f32⟩
  | .hbm, ⟨48, _⟩ => ⟨S4x4096, .f32⟩
  | .hbm, ⟨49, _⟩ => ⟨S4x4096, .f32⟩
  | .hbm, ⟨50, _⟩ => ⟨S4x4096x1, .f32⟩
  | .hbm, ⟨51, _⟩ => ⟨S4x4096x1, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S_, .f32⟩
  | .hbm, ⟨56, _⟩ => ⟨S4x4096, .f32⟩
  | .hbm, ⟨57, _⟩ => ⟨S_, .f32⟩
  | .hbm, ⟨58, _⟩ => ⟨S4x4096, .f32⟩
  | .hbm, ⟨59, _⟩ => ⟨S4x4096, .f32⟩
  | .hbm, ⟨60, _⟩ => ⟨S4x4096x512, .f32⟩
  | .hbm, ⟨61, _⟩ => ⟨S_, .f32⟩
  | .hbm, ⟨62, _⟩ => ⟨S4x4096, .f32⟩
  | .hbm, ⟨63, _⟩ => ⟨S4x4096, .f32⟩
  | .hbm, ⟨64, _⟩ => ⟨S4x4096, .f32⟩
  | .hbm, ⟨65, _⟩ => ⟨S_, .f32⟩
  | .hbm, ⟨66, _⟩ => ⟨S4x4096x512, .f32⟩
  | .hbm, ⟨67, _⟩ => ⟨S4x4096x512, .f32⟩
  | .hbm, ⟨68, _⟩ => ⟨S4x4096x1, .f32⟩
  | .hbm, ⟨69, _⟩ => ⟨S4x4096x512, .f32⟩
  | .hbm, ⟨70, _⟩ => ⟨S4x4096x512, .f32⟩
  | .hbm, ⟨71, _⟩ => ⟨S_, .f32⟩
  | .hbm, ⟨72, _⟩ => ⟨S4x4096x512, .f32⟩
  | .hbm, ⟨73, _⟩ => ⟨S4x4096x512, .f32⟩
  | .hbm, ⟨74, _⟩ => ⟨S_, .f32⟩
  | .hbm, ⟨75, _⟩ => ⟨S4x4096x512, .f32⟩
  | .hbm, ⟨76, _⟩ => ⟨S4x4096x512, .f32⟩
  | .hbm, ⟨77, _⟩ => ⟨S4x4096x512, .f32⟩
  | .hbm, ⟨78, _⟩ => ⟨S4x4096x512, .f32⟩
  | .hbm, ⟨79, _⟩ => ⟨S_, .f32⟩
  | .hbm, ⟨80, _⟩ => ⟨S4x4096x512, .f32⟩
  | .hbm, ⟨81, _⟩ => ⟨S4x4096x512, .f32⟩
  | .hbm, ⟨82, _⟩ => ⟨S4x4096x512, .f32⟩
  | .hbm, ⟨83, _⟩ => ⟨S4x4096x512, .f32⟩
  | .hbm, ⟨84, _⟩ => ⟨S4x4096x512, .i1⟩
  | .hbm, ⟨85, _⟩ => ⟨S4x4096x512, .f32⟩
  | .hbm, ⟨86, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  reducesTo_S4x4096x512_S4x4096_d2 : S4x4096x512.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x512_0_1_2 : S4x4096x1.BroadcastsInDim S4x4096x512 (![0, 1, 2] : Fin 3 → Fin S4x4096x512.rank)
  bcast_S_S4x4096x512 : S_.BroadcastsInDim S4x4096x512 (![] : Fin 0 → Fin S4x4096x512.rank)

variable [Facts₀]

class Facts : Prop extends Facts₀ where

variable [Facts]
-- ==== Proof.RowSpec.lean ====
/-
  One row of the computation, on the extended reals.

  A row is the 512 entries that share the two leading coordinates.  Of the four input rows — the scores `x`, the
  values `v`, and the two uniform draws `u` (for the mask) and `d` (for the rounding) — the result row is

    p      = softmax x                                   (the maximum subtracted first)
    α      = three Newton steps from 16 towards the root of  Σₖ (1 − exp (−α pₖ)) = 16
             (one step:  α ↦ α + (Σₖ exp (−α pₖ) − 496) / Σₖ exp (−α pₖ) · pₖ,  with 496 = 512 − 16)
    m_j    = 1 − (1 − p_j) ^ α                           (chance that class j is drawn in α rounds)
    y_j    = ⌊m_j · 127 + d_j⌋ · f32(1/127)              (m_j rounded stochastically to 128 levels)
    out_j  = v_j · [u_j < y_j]

  Two spellings of this row are stated here.  `outK` writes the power as `exp (α · log (1 − p_j))` and compares
  `u_j` with `y_j`; `outR` writes the power with the power function and compares `u_j` with the straight-through
  form `m_j + (y_j − m_j)`.  They differ also in how the one-bit comparison becomes a number (zero-extended to a word
  and read signed, or read unsigned).  Proof/RowMath.lean shows the two agree on every row of finite scores.
-/
import Idealize.ShloMosaic.PureOps.Ideal
import Idealize.ShloMosaic.Lib.ValueIdx

noncomputable section

namespace Cert.Row

open Idealize.ShloMosaic Idealize.ShloMosaic.ValueIdx

/-- The row through index `i` of a rank-3 array: the last coordinate runs, the two leading ones are `i`'s. -/
def row3 {α : Type} {n0 n1 n2 : Nat} (a : (⟨3, ![n0, n1, n2]⟩ : Shape).Idx → α) (i : (⟨3, ![n0, n1, n2]⟩ : Shape).Idx) :
    Fin n2 → α := fun k => a (ix3 (i 0) (i 1) k)

variable {n : Nat}

/-- The number of levels less one, 127, as the programs spell it. Its value is never needed. -/
def c127 : EReal := Ideal.ofBits .f32 0x42FE0000#32
/-- The single-precision number nearest 1/127, as the programs spell it. Its value is never needed. -/
def cinv : EReal := Ideal.ofBits .f32 0x3C010204#32

/-- The row's maximum: the fold of `max` from `-∞`. -/
def rowMax (x : Fin n → EReal) : EReal := (Finset.univ : Finset (Fin n)).fold max ⊥ x

/-- The softmax of the row, the maximum subtracted before exponentiating. -/
def prob (x : Fin n → EReal) (j : Fin n) : EReal :=
  Ideal.div (Ideal.exp (x j - rowMax x)) (∑ k, Ideal.exp (x k - rowMax x))

/-- One Newton step for `α`. -/
def newton (p : Fin n → EReal) (a : EReal) : EReal :=
  a + Ideal.div ((∑ k, Ideal.exp ((-a) * p k)) + ((-496 : ℝ) : EReal)) (∑ k, Ideal.exp ((-a) * p k) * p k)

/-- Three steps from 16. -/
def alpha (p : Fin n → EReal) : EReal := newton p (newton p (newton p ((16 : ℝ) : EReal)))

/-- `1 − (1 − p_j)^α` with the power written `exp (α · log (1 − p_j))`. -/
def margLog (p : Fin n → EReal) (j : Fin n) : EReal := 1 - Ideal.exp (alpha p * Ideal.log (1 - p j))

/-- `1 − (1 − p_j)^α` with the power function. -/
def margPow (p : Fin n → EReal) (j : Fin n) : EReal := 1 - Ideal.pow (1 - p j) (alpha p)

/-- `m` rounded down to a multiple of 1/127 after the draw `d` is added. -/
def level (m d : EReal) : EReal := Ideal.liftRound Int.floor (m * c127 + d) * cinv

/-- The result row, first spelling. -/
def outK (x v u d : Fin n → EReal) (j : Fin n) : EReal :=
  v j * ((((Ideal.cmp .olt (u j) (level (margLog (prob x) j) (d j))).setWidth 32).toInt : ℝ) : EReal)

/-- The result row, second spelling. -/
def outR (x v u d : Fin n → EReal) (j : Fin n) : EReal :=
  v j * (((Ideal.cmp .olt (u j)
    (margPow (prob x) j + (level (margPow (prob x) j) (d j) - margPow (prob x) j))).toNat : ℝ) : EReal)

end Cert.Row

end
-- ==== Proof.Consts.lean ====
/-
  The float constants whose VALUE the argument uses, as the extended reals their bit patterns denote: the two
  infinities, one, the Newton start 16 and the offset −496 = 16 − 512.  (127 and the single-precision 1/127 occur in
  both programs as the same word and are never evaluated.)
-/
import Idealize.ShloMosaic.PureOps.Ideal

noncomputable section

namespace Cert.Consts

open Idealize.ShloMosaic

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_neg_496 : Ideal.ofBits .f32 0xC3F80000#32 = ((-496 : ℝ) : EReal) := by
  simp [Ideal.ofBits, Ideal.ieee, -EReal.coe_mul]; norm_num

end Cert.Consts

end
-- ==== Proof.KernelOps.lean ====
/-
  The kernel's vector operations on a [1, 512, 512] block read at an index, at the exact values.

  A block index is `(a, r, j)` with `a : Fin 1`; its row is the 512 entries `(a, r, ·)`.  A lane reduction reads a row
  (its maximum, its sum) into the entry `(a, r)` of a [1, 512] vector; the kept column [1, 512, 1] of such a vector,
  broadcast back along the lanes, reads the entry `(a, r)` again at every `(a, r, j)`.  The pointwise operations read
  entrywise.
-/
import proofs.«125657_j27633819582789_1_alg».proof.Proof.Gen.KernelIdeal
import proofs.«125657_j27633819582789_1_alg».proof.Proof.RowSpec
import proofs.«125657_j27633819582789_1_alg».proof.Proof.Consts
import Idealize.ShloMosaic.PureOps.Ideal.Laws
import Idealize.ShloMosaic.Lib.ValueIdx
import Idealize.ShloMosaic.Lib.Pipeline.Value

noncomputable section

namespace Cert.KernelRow

open Cert.KernelIdeal Cert.KernelIdeal.Facts₀ Idealize.ShloMosaic Idealize.ShloMosaic.ValueIdx

/-- The block index over `(a, r)` with lane `k` inserted is `(a, r, k)`. -/
theorem lift_eq (h : S1x512x512.Reduces [2] S1x512) (a : Fin 1) (r : Fin 512) (k : Fin 512) :
    h.lift (ix2 a r) k = ix3 a r k := by
  funext c
  apply Fin.ext
  match c with
  | ⟨0, _⟩ => rfl
  | ⟨1, _⟩ => rfl
  | ⟨2, _⟩ => rfl

/-- The lane maximum of a block at `(a, r)` is the maximum of row `(a, r)`. -/
theorem rowmax_apply (v : FVec Ideal S1x512x512 .f32) (hφ : FKind.Formats .f32)
    (hacc : (0xFF800000#32 : BitVec 32) = 0xFF800000#32) (a : Fin 1) (r : Fin 512) :
    multiReduction .maximumf [2] S1x512 v 0xFF800000#32 reduces_S1x512x512_S1x512 hφ hacc (ix2 a r)
      = Cert.Row.rowMax (fun k => v (ix3 a r k)) := by
  refine (Ideal.multiReduction_maximumf_single v _ reduces_S1x512x512_S1x512 hφ hacc (ix2 a r)).trans ?_
  unfold Cert.Row.rowMax
  rw [show FloatOps.ofBits (F := Ideal) .f32 0xFF800000#32 = ⊥ from Cert.Consts.ofBits_neg_inf]
  refine congrArg (fun f => Finset.fold max ⊥ f Finset.univ) ?_
  funext k
  exact congrArg v (lift_eq _ a r k)

/-- The lane sum of a block at `(a, r)` is the sum of row `(a, r)`. -/
theorem rowsum_apply (v : FVec Ideal S1x512x512 .f32) (hφ : FKind.Formats .f32)
    (hacc : (0x00000000#32 : BitVec 32) = 0x00000000#32) (a : Fin 1) (r : Fin 512) :
    multiReduction .add [2] S1x512 v 0x00000000#32 reduces_S1x512x512_S1x512 hφ hacc (ix2 a r)
      = ∑ k : Fin 512, v (ix3 a r k) := by
  refine (Ideal.multiReduction_add_single v _ reduces_S1x512x512_S1x512 hφ hacc (ix2 a r)).trans ?_
  exact Finset.sum_congr rfl fun k _ => congrArg v (lift_eq _ a r k)

/-- A [1, 512] vector kept as a [1, 512, 1] column reads its entry `(a, r)` at `(a, r, 0)`. -/
theorem column_apply {α : Type} (w : S1x512.Idx → α) (a : Fin 1) (r : Fin 512) (z : Fin 1) :
    shapeCast S1x512x1 w shapeCasts_S1x512_S1x512x1 (ix3 a r z) = w (ix2 a r) := by
  refine shapeCast_apply _ _ (ix3 a r z) (ix2 a r) ?_
  rw [Shape.rowMajor_val_two, Shape.rowMajor_val_three]
  show a.val * 512 + r.val = (a.val * 512 + r.val) * 1 + z.val
  omega

/-- A [1, 512, 1] column broadcast along the lanes reads its entry `(a, r, 0)` at every `(a, r, j)`. -/
theorem lanes_apply {α : Type} (u : S1x512x1.Idx → α) (a : Fin 1) (r j : Fin 512) :
    broadcastTo S1x512x512 u broadcasts_S1x512x1_S1x512x512 (ix3 a r j) = u (ix3 a r (0 : Fin 1)) := by
  refine broadcastTo_apply _ _ (ix3 a r j) (ix3 a r (0 : Fin 1)) ?_
  intro c
  match c with
  | ⟨0, _⟩ => show a.val = (if (1 : Nat) = 1 then 0 else a.val); rw [if_pos rfl]; omega
  | ⟨1, _⟩ => show r.val = (if (512 : Nat) = 1 then 0 else r.val); rw [if_neg (by decide)]
  | ⟨2, _⟩ => show (0 : Nat) = (if (1 : Nat) = 1 then 0 else j.val); rw [if_pos rfl]

/-! The pointwise operations the library's index vocabulary does not list, entrywise (by definition). -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem floor_apply {s : Shape} {φ : FTy} (x : FVec Ideal s φ) (i : s.Idx) :
    floor x i = Ideal.liftRound Int.floor (x i) := rfl

end Cert.KernelRow

end
-- ==== Proof.KernelRow.lean ====
/-
  What the kernel body stores, read at a block index, is the first spelling of the row function.

  The body's arithmetic is five nested pure terms of the four loaded [1, 512, 512] blocks (scores, values, mask draws,
  rounding draws).  Reading each at an index `(a, r, j)` — every lane reduction a fold or a sum over row `(a, r)`,
  every kept column broadcast back the row's own entry — gives, in order: the softmax `p` of the scores' row; the first
  Newton iterate; the exponentials `exp (−α₁ pₖ)` and their sum less 496, with which the second step starts; and the
  stored product of the value with the comparison bit, after the second and third steps, the marginal
  `1 − exp (α₃ log (1 − p_j))` and its stochastic rounding.
-/
import proofs.«125657_j27633819582789_1_alg».proof.Proof.KernelOps
import proofs.«125657_j27633819582789_1_alg».proof.Proof.Gen.KernelIdeal.Skeleton

noncomputable section

namespace Cert.KernelRow

open Cert.KernelIdeal Cert.KernelIdeal.Gen Cert.KernelIdeal.Facts₀ Idealize.ShloMosaic Idealize.ShloMosaic.ValueIdx
open Cert.Row

/-- Entrywise reading of the pointwise operations and of the kept columns. -/
macro "entrywise" : tactic => `(tactic| simp only [addf_apply, subf_apply, mulf_apply, divf_apply, exp_apply, log_apply,
  floor_apply, broadcast_apply, cmpf_apply, extui_apply, sitofp_apply, lanes_apply, column_apply])

/-- The constants' values: zero, sixteen, −496; a difference from zero is the negation. -/
macro "constants" : tactic => `(tactic| simp only [Ideal.ofBits_def, Cert.Consts.ofBits_16, Cert.Consts.ofBits_zero,
  Cert.Consts.ofBits_neg_496, Cert.Consts.ofBits_one, zero_sub])

/-- The softmax of the scores' row. -/
theorem pay2_apply (x : FVec Ideal S1x512x512 .f32) (a : Fin 1) (r k : Fin 512) :
    k0_pay2 (F := Ideal) x (ix3 a r k) = prob (fun k => x (ix3 a r k)) k := by
  unfold k0_pay2 prob
  entrywise
  rw [rowsum_apply]
  entrywise
  rw [rowmax_apply]

/-- The first Newton iterate, from 16. -/
theorem pay3_apply (x : FVec Ideal S1x512x512 .f32) (a : Fin 1) (r : Fin 512) :
    k0_pay3 (F := Ideal) x (ix2 a r) = newton (prob (fun k => x (ix3 a r k))) ((16 : ℝ) : EReal) := by
  unfold k0_pay3 newton
  entrywise
  rw [rowsum_apply, rowsum_apply]
  entrywise
  simp only [pay2_apply]
  constants

/-- The exponentials the second step sums. -/
theorem pay4_apply (x : FVec Ideal S1x512x512 .f32) (a : Fin 1) (r k : Fin 512) :
    k0_pay4 (F := Ideal) x (ix3 a r k)
      = Ideal.exp ((-(newton (prob (fun k => x (ix3 a r k))) ((16 : ℝ) : EReal))) * prob (fun k => x (ix3 a r k)) k) := by
  unfold k0_pay4
  entrywise
  simp only [pay2_apply, pay3_apply]
  constants

/-- Their sum less 496. -/
theorem pay5_apply (x : FVec Ideal S1x512x512 .f32) (a : Fin 1) (r : Fin 512) :
    k0_pay5 (F := Ideal) x (ix2 a r)
      = (∑ k, Ideal.exp ((-(newton (prob (fun k => x (ix3 a r k))) ((16 : ℝ) : EReal))) * prob (fun k => x (ix3 a r k)) k))
        + ((-496 : ℝ) : EReal) := by
  unfold k0_pay5
  entrywise
  rw [rowsum_apply]
  simp only [pay4_apply]
  constants

/-- THE STORED VALUE at `(a, r, j)`: the first spelling of the row function, of the four blocks' rows `(a, r)`. -/
theorem pay1_apply (x v u d : FVec Ideal S1x512x512 .f32) (a : Fin 1) (r j : Fin 512) :
    k0_pay1 (F := Ideal) v u d (k0_pay2 x) (k0_pay3 x) (k0_pay4 x) (k0_pay5 x) (ix3 a r j)
      = outK (fun k => x (ix3 a r k)) (fun k => v (ix3 a r k)) (fun k => u (ix3 a r k)) (fun k => d (ix3 a r k)) j := by
  unfold k0_pay1 outK level margLog alpha c127 cinv
  entrywise
  repeat (first | rw [rowsum_apply] | entrywise)
  simp only [pay2_apply, pay3_apply, pay4_apply, pay5_apply]
  constants
  generalize newton (prob fun k => x (ix3 a r k)) ((16 : ℝ) : EReal) = A1
  unfold newton
  rfl

end Cert.KernelRow

end
-- ==== Proof.KernelValue.lean ====
/-
  The kernel's result array, after the run, as one function of the four argument arrays.

  The grid is 4 × 8; at point `(b, s)` every window — the four inputs and the output alike — holds block `(b, s, 0)`
  of its array: the 512 rows `512·s … 512·s + 511` of batch `b`, whole rows of 512 lanes.  A row of a block is therefore
  a row of the array, so what the point writes back — the row function of the blocks' rows (Proof/KernelRow.lean) — is
  the block of ONE whole-array function `G`: at `(b, q, j)` the row function of the arrays' rows `(b, q)`, at lane `j`.
  The 32 blocks tile the array, so the array ends at `G`.
-/
import proofs.«125657_j27633819582789_1_alg».proof.Proof.Gen.KernelIdeal.Frame
import proofs.«125657_j27633819582789_1_alg».proof.Proof.KernelRow
import Idealize.ShloMosaic.Lib.Pipeline.Value

noncomputable section

namespace Cert.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Row

variable (m : (ℓ : Loc nD τ sig) → Buf (Elt Ideal) ℓ) (ρ : Dev nD → PrngReg)

/-- The result as one function of the argument arrays: at `i = (b, q, j)` the row function (first spelling) of the four
    arrays' rows `(b, q)`, at lane `j`. -/
def G (a0 a1 a2 a3 : S4x4096x512.Idx → EReal) : S4x4096x512.Idx → EReal :=
  fun i => outK (row3 a0 i) (row3 a1 i) (row3 a2 i) (row3 a3 i) (i 2)

theorem offsets_zero : (![0, 0, 0] : Fin 3 → Nat) = fun _ => 0 := funext fun a => by fin_cases a <;> rfl

/-- Over the 32 grid points: every input window sits at the output window's block index, and that index is 0 along the
    lanes. -/
theorem same_block : ∀ t : Fin cfg0.N,
    (win0_0.index t (0 : Fin 3) = win0_4.index t (0 : Fin 3) ∧ win0_0.index t (1 : Fin 3) = win0_4.index t (1 : Fin 3)
      ∧ win0_0.index t (2 : Fin 3) = win0_4.index t (2 : Fin 3))
    ∧ (win0_1.index t (0 : Fin 3) = win0_4.index t (0 : Fin 3) ∧ win0_1.index t (1 : Fin 3) = win0_4.index t (1 : Fin 3)
      ∧ win0_1.index t (2 : Fin 3) = win0_4.index t (2 : Fin 3))
    ∧ (win0_2.index t (0 : Fin 3) = win0_4.index t (0 : Fin 3) ∧ win0_2.index t (1 : Fin 3) = win0_4.index t (1 : Fin 3)
      ∧ win0_2.index t (2 : Fin 3) = win0_4.index t (2 : Fin 3))
    ∧ (win0_3.index t (0 : Fin 3) = win0_4.index t (0 : Fin 3) ∧ win0_3.index t (1 : Fin 3) = win0_4.index t (1 : Fin 3)
      ∧ win0_3.index t (2 : Fin 3) = win0_4.index t (2 : Fin 3))
    ∧ win0_4.index t (2 : Fin 3) = 0 :=
  (by decide +kernel : ∀ t : Fin grid0.N, _)

/-- Every block `(b, s, 0)` of the output is some point's. -/
theorem every_block : ∀ (b : Fin 4) (s : Fin 8), ∃ t : Fin cfg0.N, win0_4.index t = ![b.val, s.val, 0] :=
  (by decide +kernel : ∀ (b : Fin 4) (s : Fin 8), ∃ t : Fin grid0.N, win0_4.index t = ![b.val, s.val, 0])

/-- An input window's block at a point, read at a block index, is its argument array at the index under it. -/
theorem block_read (c : Dev nD) (t : Fin cfg0.N) (y : S1x512x512.Idx) :
    iblk m c 0 t y = V m c main_arg0 (((cfg0.win 0).blk t).view.emb y)
    ∧ iblk m c 1 t y = V m c main_arg1 (((cfg0.win 1).blk t).view.emb y)
    ∧ iblk m c 2 t y = V m c main_arg2 (((cfg0.win 2).blk t).view.emb y)
    ∧ iblk m c 3 t y = V m c main_arg3 (((cfg0.win 3).blk t).view.emb y) := ⟨rfl, rfl, rfl, rfl⟩

/-- The array index under block index `(a, r, k)` of any window at point `t` is `(·, ·, k)` on the array row that holds
    the output's `(a, r, j)`: blocks are whole rows, and all five windows sit at one block index. -/
theorem emb_row (t : Fin cfg0.N) (a : Fin 1) (r j k : Fin 512) :
    (((cfg0.win 0).blk t).view.emb (ix3 a r k) : S4x4096x512.Idx)
        = ix3 ((((cfg0.win 4).blk t).view.emb (ix3 a r j) : S4x4096x512.Idx) 0) ((((cfg0.win 4).blk t).view.emb (ix3 a r j) : S4x4096x512.Idx) 1) k
    ∧ (((cfg0.win 1).blk t).view.emb (ix3 a r k) : S4x4096x512.Idx)
        = ix3 ((((cfg0.win 4).blk t).view.emb (ix3 a r j) : S4x4096x512.Idx) 0) ((((cfg0.win 4).blk t).view.emb (ix3 a r j) : S4x4096x512.Idx) 1) k
    ∧ (((cfg0.win 2).blk t).view.emb (ix3 a r k) : S4x4096x512.Idx)
        = ix3 ((((cfg0.win 4).blk t).view.emb (ix3 a r j) : S4x4096x512.Idx) 0) ((((cfg0.win 4).blk t).view.emb (ix3 a r j) : S4x4096x512.Idx) 1) k
    ∧ (((cfg0.win 3).blk t).view.emb (ix3 a r k) : S4x4096x512.Idx)
        = ix3 ((((cfg0.win 4).blk t).view.emb (ix3 a r j) : S4x4096x512.Idx) 0) ((((cfg0.win 4).blk t).view.emb (ix3 a r j) : S4x4096x512.Idx) 1) k
    ∧ ((((cfg0.win 4).blk t).view.emb (ix3 a r j) : S4x4096x512.Idx) 2) = j := by
  obtain ⟨⟨e00, e01, e02⟩, ⟨e10, e11, e12⟩, ⟨e20, e21, e22⟩, ⟨e30, e31, e32⟩, e4⟩ := same_block t
  have ha : a.val < 1 := a.isLt
  have hr : r.val < 512 := r.isLt
  have hj : j.val < 512 := j.isLt
  have hk : k.val < 512 := k.isLt
  refine ⟨?_, ?_, ?_, ?_, ?_⟩
  · funext ax; apply Fin.ext
    match ax with
    | ⟨0, _⟩ => show win0_0.index t (0 : Fin 3) * 1 + 1 * a.val = win0_4.index t (0 : Fin 3) * 1 + 1 * a.val; omega
    | ⟨1, _⟩ => show win0_0.index t (1 : Fin 3) * 512 + 1 * r.val = win0_4.index t (1 : Fin 3) * 512 + 1 * r.val; omega
    | ⟨2, _⟩ => show win0_0.index t (2 : Fin 3) * 512 + 1 * k.val = k.val; omega
  · funext ax; apply Fin.ext
    match ax with
    | ⟨0, _⟩ => show win0_1.index t (0 : Fin 3) * 1 + 1 * a.val = win0_4.index t (0 : Fin 3) * 1 + 1 * a.val; omega
    | ⟨1, _⟩ => show win0_1.index t (1 : Fin 3) * 512 + 1 * r.val = win0_4.index t (1 : Fin 3) * 512 + 1 * r.val; omega
    | ⟨2, _⟩ => show win0_1.index t (2 : Fin 3) * 512 + 1 * k.val = k.val; omega
  · funext ax; apply Fin.ext
    match ax with
    | ⟨0, _⟩ => show win0_2.index t (0 : Fin 3) * 1 + 1 * a.val = win0_4.index t (0 : Fin 3) * 1 + 1 * a.val; omega
    | ⟨1, _⟩ => show win0_2.index t (1 : Fin 3) * 512 + 1 * r.val = win0_4.index t (1 : Fin 3) * 512 + 1 * r.val; omega
    | ⟨2, _⟩ => show win0_2.index t (2 : Fin 3) * 512 + 1 * k.val = k.val; omega
  · funext ax; apply Fin.ext
    match ax with
    | ⟨0, _⟩ => show win0_3.index t (0 : Fin 3) * 1 + 1 * a.val = win0_4.index t (0 : Fin 3) * 1 + 1 * a.val; omega
    | ⟨1, _⟩ => show win0_3.index t (1 : Fin 3) * 512 + 1 * r.val = win0_4.index t (1 : Fin 3) * 512 + 1 * r.val; omega
    | ⟨2, _⟩ => show win0_3.index t (2 : Fin 3) * 512 + 1 * k.val = k.val; omega
  · apply Fin.ext
    show win0_4.index t (2 : Fin 3) * 512 + 1 * j.val = j.val
    omega

/-- WHAT POINT `t` WRITES BACK is block `t` of `G` of the argument arrays. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  show (cfg0.win 4).cut (grid0.coords t) ((dats m 0 c).after 4 t) = _
  rw [after0_4]
  unfold out0_4
  rw [View.canon_unit_zero offsets_zero]
  simp only [View.ld_unit_zero (S := S1x512x512) offsets_zero]
  funext y
  obtain ⟨a, r, j, rfl⟩ : ∃ (a : Fin 1) (r j : Fin 512), y = ix3 a r j := ⟨y 0, y 1, y 2, eq_ix3 y⟩
  refine (Cert.KernelRow.pay1_apply (iblk m c 0 t) (iblk m c 1 t) (iblk m c 2 t) (iblk m c 3 t) a r j).trans ?_
  show _ = G (V m c main_arg0) (V m c main_arg1) (V m c main_arg2) (V m c main_arg3) (((cfg0.win 4).blk t).view.emb (ix3 a r j))
  unfold G row3
  have h0 : (fun k => iblk m c 0 t (ix3 a r k)) = fun k => V m c main_arg0 (ix3 ((((cfg0.win 4).blk t).view.emb (ix3 a r j) : S4x4096x512.Idx) 0) ((((cfg0.win 4).blk t).view.emb (ix3 a r j) : S4x4096x512.Idx) 1) k) :=
    funext fun k => ((block_read m c t (ix3 a r k)).1).trans (congrArg (V m c main_arg0) (emb_row t a r j k).1)
  have h1 : (fun k => iblk m c 1 t (ix3 a r k)) = fun k => V m c main_arg1 (ix3 ((((cfg0.win 4).blk t).view.emb (ix3 a r j) : S4x4096x512.Idx) 0) ((((cfg0.win 4).blk t).view.emb (ix3 a r j) : S4x4096x512.Idx) 1) k) :=
    funext fun k => ((block_read m c t (ix3 a r k)).2.1).trans (congrArg (V m c main_arg1) (emb_row t a r j k).2.1)
  have h2 : (fun k => iblk m c 2 t (ix3 a r k)) = fun k => V m c main_arg2 (ix3 ((((cfg0.win 4).blk t).view.emb (ix3 a r j) : S4x4096x512.Idx) 0) ((((cfg0.win 4).blk t).view.emb (ix3 a r j) : S4x4096x512.Idx) 1) k) :=
    funext fun k => ((block_read m c t (ix3 a r k)).2.2.1).trans (congrArg (V m c main_arg2) (emb_row t a r j k).2.2.1)
  have h3 : (fun k => iblk m c 3 t (ix3 a r k)) = fun k => V m c main_arg3 (ix3 ((((cfg0.win 4).blk t).view.emb (ix3 a r j) : S4x4096x512.Idx) 0) ((((cfg0.win 4).blk t).view.emb (ix3 a r j) : S4x4096x512.Idx) 1) k) :=
    funext fun k => ((block_read m c t (ix3 a r k)).2.2.2).trans (congrArg (V m c main_arg3) (emb_row t a r j k).2.2.2.1)
  rw [h0, h1, h2, h3, (emb_row t a r j j).2.2.2.2]

/-- An array index is in point `t`'s output block iff each coordinate is in the block's range on its axis. -/
theorem mem_block (t : Fin cfg0.N) (i : S4x4096x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v0).slice (win0_4.rect t)).set ↔ _
  rw [View.set_slice_whole, Rect.mem_set_unit]
  exact Iff.rfl

/-- The blocks tile the array: index `(b, q, j)` is in the block of the point whose block index is `(b, q / 512, 0)`. -/
theorem covered (i : S4x4096x512.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 512 := (i 2).isLt
  obtain ⟨t, ht⟩ := every_block ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-- THE ARRAY after the run is `G` of the argument arrays as launched. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) covered

/-- The run, read: every weakly fair execution of the kernel's program terminates with the result array at `G` of the
    argument arrays and the argument arrays unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelValue

end
-- ==== Proof.RefOps.lean ====
/-
  The operations of the reference computation, each read at one index of its result, on the extended reals.

  The arrays have three axes (4, 4096 and 512 long); a row is the 512 entries sharing the two leading
  coordinates.  Two reductions run along a row: the maximum, which is the fold of `max` from `-∞`, and the sum.
  A per-row number is spread back over its row by two broadcasts (first to a unit third axis, then along it), and a
  scalar constant is spread over a whole array by one.  Everything else acts entry by entry.  The lemmas below
  read each of these at an index written by its coordinates, first the single operations and then the few
  compositions the computation repeats: `exp (x − max x)`, the quotient by the row's sum, `exp (−α · p)`, one
  Newton step, `1 − (1 − p)^α`, and the final rounding, comparison and product.
-/
import proofs.«125657_j27633819582789_1_alg».proof.Proof.Gen.ReferenceIdeal.Run
import proofs.«125657_j27633819582789_1_alg».proof.Proof.RowSpec
import proofs.«125657_j27633819582789_1_alg».proof.Proof.Consts
import Idealize.ShloMosaic.PureOps.Ideal.Laws
import Idealize.ShloMosaic.Lib.ValueIdx
import Idealize.ShloMosaic.Lib.Pipeline.Value

noncomputable section

namespace Cert.RefRow

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

/-! ## The two reductions along a row -/

/-- Dropping the last axis of a [4, 4096, 512] array leaves a [4, 4096] one. -/
theorem redW : S4x4096x512.Reduces [2] S4x4096 := by decide

/-- The index over `(b, s)` with `k` inserted on the dropped axis is `(b, s, k)`. -/
theorem lift_eq (b : Fin 4) (s : Fin 4096) (k : Fin 512) :
    redW.lift (ix2 b s) k = ix3 b s k := by
  funext c
  match c with
  | ⟨0, _⟩ => exact Fin.ext rfl
  | ⟨1, _⟩ => exact Fin.ext rfl
  | ⟨2, _⟩ => exact Fin.ext rfl

/-- The maximum along the last axis from `-∞`, at `(b, s)`: the row's maximum. -/
theorem redMax_apply (x : FVec Ideal S4x4096x512 .f32) (b : Fin 4) (s : Fin 4096) :
    Host.reduce FloatOps.maximumf x (constant S_ .f32 0xFF800000#32) reducesTo_S4x4096x512_S4x4096_d2 h_S_ (ix2 b s)
      = Cert.Row.rowMax (fun k : Fin 512 => x (ix3 b s k)) := by
  refine (Host.reduce_eq_fold_single (FloatOps.maximumf (F := Ideal) (φ := .f32)) x _ _ redW h_S_ (ix2 b s)).trans ?_
  have hf : (x ∘ redW.lift (ix2 b s)) = fun k : Fin 512 => x (ix3 b s k) :=
    funext fun k => congrArg x (lift_eq b s k)
  have hi : (constant (F := Ideal) S_ .f32 0xFF800000#32) (Shape.Idx.first h_S_) = (⊥ : EReal) :=
    Cert.Consts.ofBits_neg_inf
  rw [hf, hi]
  rfl

/-- The sum along the last axis from zero, at `(b, s)`: the row's sum. -/
theorem redAdd_apply (x : FVec Ideal S4x4096x512 .f32) (b : Fin 4) (s : Fin 4096) :
    Host.reduceAdd x (constant S_ .f32 0x00000000#32) reducesTo_S4x4096x512_S4x4096_d2 h_S_ (ix2 b s)
      = ∑ k : Fin 512, x (ix3 b s k) := by
  unfold Host.reduceAdd
  rw [Ideal.hostReduceAdd_def]
  refine (Ideal.hostReduceAdd_single reducesTo_S4x4096x512_S4x4096_d2 redW x _ (ix2 b s)).trans ?_
  have hi : (constant (F := Ideal) S_ .f32 0x00000000#32) (Shape.Idx.first h_S_) = (0 : EReal) :=
    Cert.Consts.ofBits_zero
  rw [hi, zero_add]
  exact Finset.sum_congr rfl fun k _ => congrArg x (lift_eq b s k)

/-! ## The broadcasts -/

/-- A scalar spread over a [4, 4096] array reads the scalar. -/
theorem bc0_2_apply (c : FVec Ideal S_ .f32) (b : Fin 4) (s : Fin 4096) :
    broadcastInDim S4x4096 ![] bcast_S_S4x4096 c (ix2 b s) = c ix0 :=
  broadcastInDim_apply _ _ _ _ ix0 (fun a => a.elim0)

/-- A scalar spread over a [4, 4096, 512] array reads the scalar. -/
theorem bc0_3_apply (c : FVec Ideal S_ .f32) (b : Fin 4) (s : Fin 4096) (j : Fin 512) :
    broadcastInDim S4x4096x512 ![] bcast_S_S4x4096x512 c (ix3 b s j) = c ix0 :=
  broadcastInDim_apply _ _ _ _ ix0 (fun a => a.elim0)

/-- A [4, 4096] array given a unit third axis reads the entry of the two leading coordinates. -/
theorem bcA_apply (a : FVec Ideal S4x4096 .f32) (b : Fin 4) (s : Fin 4096) (z : Fin 1) :
    broadcastInDim S4x4096x1 ![0, 1] bcast_S4x4096_S4x4096x1_0_1 a (ix3 b s z) = a (ix2 b s) :=
  broadcastInDim_apply _ _ _ _ (ix2 b s) (fun c => match c with
    | ⟨0, _⟩ => rfl
    | ⟨1, _⟩ => rfl)

/-- A [4, 4096, 1] array spread along its unit axis reads the entry at coordinate `0` of that axis. -/
theorem bcB_apply (a : FVec Ideal S4x4096x1 .f32) (b : Fin 4) (s : Fin 4096) (j : Fin 512) :
    broadcastInDim S4x4096x512 ![0, 1, 2] bcast_S4x4096x1_S4x4096x512_0_1_2 a (ix3 b s j) = a (ix3 b s 0) :=
  broadcastInDim_apply _ _ _ _ (ix3 b s 0) (fun c => match c with
    | ⟨0, _⟩ => rfl
    | ⟨1, _⟩ => rfl
    | ⟨2, _⟩ => rfl)

/-- So a per-row number spread back over its row reads that number at every entry of the row. -/
theorem bcRow_apply (a : FVec Ideal S4x4096 .f32) (b : Fin 4) (s : Fin 4096) (j : Fin 512) :
    broadcastInDim S4x4096x512 ![0, 1, 2] bcast_S4x4096x1_S4x4096x512_0_1_2
        (broadcastInDim S4x4096x1 ![0, 1] bcast_S4x4096_S4x4096x1_0_1 a) (ix3 b s j) = a (ix2 b s) :=
  (bcB_apply _ b s j).trans (bcA_apply a b s 0)

/-! ## The entrywise operations at an index -/

section Pointwise
variable {sh : Shape}

/-- The exponential at an index. -/
theorem hexp_apply (a : FVec Ideal sh .f32) (i : sh.Idx) : Host.exp a i = Ideal.exp (a i) := rfl
/-- The quotient at an index. -/
theorem hdivf_apply (a c : FVec Ideal sh .f32) (i : sh.Idx) : Host.divf a c i = Ideal.div (a i) (c i) := rfl
/-- The negation at an index. -/
theorem hnegf_apply (a : FVec Ideal sh .f32) (i : sh.Idx) : Host.negf a i = -(a i) := rfl
/-- The power at an index. -/
theorem hpowf_apply (a c : FVec Ideal sh .f32) (i : sh.Idx) : Host.powf a c i = Ideal.pow (a i) (c i) := rfl
/-- The floor at an index. -/
theorem hfloor_apply (a : FVec Ideal sh .f32) (i : sh.Idx) : Host.floor a i = Ideal.liftRound Int.floor (a i) := rfl
/-- A one-bit word read unsigned as a number, at an index. -/
theorem uitofp_apply (c : IVec sh 1) (i : sh.Idx) :
    (uitofp .f32 c : FVec Ideal sh .f32) i = (((c i).toNat : ℝ) : EReal) := rfl
/-- The comparison at an index. -/
theorem cmpf_apply' (p : CmpFPredicate) (a c : FVec Ideal sh .f32) (i : sh.Idx) :
    cmpf p a c i = Ideal.cmp p (a i) (c i) := rfl

end Pointwise

/-! ## The compositions the computation repeats -/

/-- `exp (x − max x)`, the maximum taken along the row (and once more against `-∞`, which changes nothing). -/
theorem expSubMax_apply (x : FVec Ideal S4x4096x512 .f32) (b : Fin 4) (s : Fin 4096) (k : Fin 512) :
    Host.exp (subf x (broadcastInDim S4x4096x512 ![0, 1, 2] bcast_S4x4096x1_S4x4096x512_0_1_2
        (broadcastInDim S4x4096x1 ![0, 1] bcast_S4x4096_S4x4096x1_0_1
          (maximumf (broadcastInDim S4x4096 ![] bcast_S_S4x4096 (constant S_ .f32 0xFF800000#32))
            (Host.reduce FloatOps.maximumf x (constant S_ .f32 0xFF800000#32) reducesTo_S4x4096x512_S4x4096_d2 h_S_)))))
        (ix3 b s k)
      = Ideal.exp (x (ix3 b s k) - Cert.Row.rowMax (fun k : Fin 512 => x (ix3 b s k))) := by
  rw [hexp_apply, subf_apply, bcRow_apply, maximumf_apply, bc0_2_apply, redMax_apply, constant_apply,
    Cert.Consts.ofBits_neg_inf, max_eq_right bot_le]

/-- The quotient of an entry by its row's sum. -/
theorem divSum_apply (E : FVec Ideal S4x4096x512 .f32) (b : Fin 4) (s : Fin 4096) (k : Fin 512) :
    Host.divf E (broadcastInDim S4x4096x512 ![0, 1, 2] bcast_S4x4096x1_S4x4096x512_0_1_2
        (broadcastInDim S4x4096x1 ![0, 1] bcast_S4x4096_S4x4096x1_0_1
          (Host.reduceAdd E (constant S_ .f32 0x00000000#32) reducesTo_S4x4096x512_S4x4096_d2 h_S_))) (ix3 b s k)
      = Ideal.div (E (ix3 b s k)) (∑ k' : Fin 512, E (ix3 b s k')) := by
  rw [hdivf_apply, bcRow_apply, redAdd_apply]

/-- `exp (−α · p)`, `α` a per-row number spread over its row (the sign is changed on the unit-axis array). -/
theorem expNeg_apply (a : FVec Ideal S4x4096 .f32) (P : FVec Ideal S4x4096x512 .f32) (b : Fin 4) (s : Fin 4096)
    (k : Fin 512) :
    Host.exp (mulf (broadcastInDim S4x4096x512 ![0, 1, 2] bcast_S4x4096x1_S4x4096x512_0_1_2
        (Host.negf (broadcastInDim S4x4096x1 ![0, 1] bcast_S4x4096_S4x4096x1_0_1 a))) P) (ix3 b s k)
      = Ideal.exp ((-(a (ix2 b s))) * P (ix3 b s k)) := by
  rw [hexp_apply, mulf_apply, bcB_apply, hnegf_apply, bcA_apply]

/-- One Newton step: `α + (Σ E − 496) / Σ E · p` along the row, `E` standing for `exp (−α · p)`. -/
theorem newtonStep_apply (a : FVec Ideal S4x4096 .f32) (E P : FVec Ideal S4x4096x512 .f32) (b : Fin 4) (s : Fin 4096) :
    addf a (Host.divf
        (addf (Host.reduceAdd E (constant S_ .f32 0x00000000#32) reducesTo_S4x4096x512_S4x4096_d2 h_S_)
          (broadcastInDim S4x4096 ![] bcast_S_S4x4096 (constant S_ .f32 0xC3F80000#32)))
        (Host.reduceAdd (mulf E P) (constant S_ .f32 0x00000000#32) reducesTo_S4x4096x512_S4x4096_d2 h_S_)) (ix2 b s)
      = a (ix2 b s) + Ideal.div ((∑ k : Fin 512, E (ix3 b s k)) + ((-496 : ℝ) : EReal))
          (∑ k : Fin 512, E (ix3 b s k) * P (ix3 b s k)) := by
  rw [addf_apply, hdivf_apply, addf_apply, redAdd_apply, redAdd_apply, bc0_2_apply, constant_apply,
    Cert.Consts.ofBits_neg_496]
  rfl

/-- `1 − (1 − p)^α`, `α` a per-row number spread over its row. -/
theorem marg_apply (P : FVec Ideal S4x4096x512 .f32) (a : FVec Ideal S4x4096 .f32) (b : Fin 4) (s : Fin 4096)
    (j : Fin 512) :
    subf (broadcastInDim S4x4096x512 ![] bcast_S_S4x4096x512 (constant S_ .f32 0x3F800000#32))
        (Host.powf (subf (broadcastInDim S4x4096x512 ![] bcast_S_S4x4096x512 (constant S_ .f32 0x3F800000#32)) P)
          (broadcastInDim S4x4096x512 ![0, 1, 2] bcast_S4x4096x1_S4x4096x512_0_1_2
            (broadcastInDim S4x4096x1 ![0, 1] bcast_S4x4096_S4x4096x1_0_1 a))) (ix3 b s j)
      = 1 - Ideal.pow (1 - P (ix3 b s j)) (a (ix2 b s)) := by
  rw [subf_apply, hpowf_apply, subf_apply, bc0_3_apply, bcRow_apply, constant_apply, Cert.Consts.ofBits_one]

/-- The last steps: `m` rounded to a level after the draw `d` is added, the comparison of `u` with
    `m + (level − m)`, the one-bit result read as a number, and the product with `v`. -/
theorem final_apply (v u d M : FVec Ideal S4x4096x512 .f32) (b : Fin 4) (s : Fin 4096) (j : Fin 512) :
    mulf v (uitofp .f32 (cmpf .olt u (addf M (subf
        (mulf (Host.floor (addf (mulf M (broadcastInDim S4x4096x512 ![] bcast_S_S4x4096x512 (constant S_ .f32 0x42FE0000#32))) d))
          (broadcastInDim S4x4096x512 ![] bcast_S_S4x4096x512 (constant S_ .f32 0x3C010204#32))) M)))) (ix3 b s j)
      = v (ix3 b s j) * (((Ideal.cmp .olt (u (ix3 b s j))
          (M (ix3 b s j) + (Cert.Row.level (M (ix3 b s j)) (d (ix3 b s j)) - M (ix3 b s j)))).toNat : ℝ) : EReal) := by
  rw [mulf_apply, uitofp_apply, cmpf_apply', addf_apply, subf_apply, mulf_apply, hfloor_apply, addf_apply, mulf_apply,
    bc0_3_apply, bc0_3_apply, constant_apply, constant_apply]
  rfl

end Cert.RefRow

end
-- ==== Proof.RefRow.lean ====
/-
  The reference computation read at an index, on the extended reals: its result at `(b, s, j)` is entry `j` of the
  row function `Cert.Row.outR` of the four argument arrays' rows through `(b, s)`.

  The computation names nine intermediate arrays.  They are read innermost first, each through the lemmas of
  Proof/RefOps.lean: `exp (x − max x)` and its quotient by the row's sum give the softmax `p`; the start value 16 and
  two Newton steps give per-row numbers `α₁`, `α₂`, each step summing `exp (−α · p)` and `exp (−α · p) · p` along the
  row; the third step sits inside the last intermediate, `1 − (1 − p)^α₃`; and the result rounds, compares and
  multiplies entry by entry.
-/
import proofs.«125657_j27633819582789_1_alg».proof.Proof.RefOps

noncomputable section

namespace Cert.RefRow

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

variable (V0 : Valuation τ sig (Elt Ideal))

/-- The row of scores through `(b, s)`. -/
abbrev xrow (b : Fin 4) (s : Fin 4096) : Fin 512 → EReal :=
  fun k => (V0 (Proc.devRef .tc main_arg0) : S4x4096x512.Idx → EReal) (ix3 b s k)

/-- The softmax of that row. -/
abbrev prow (b : Fin 4) (s : Fin 4096) : Fin 512 → EReal := Cert.Row.prob (xrow V0 b s)

/-- The per-row numbers the computation names — the Newton start and the first two steps — at `(b, s)`. -/
abbrev a11 (b : Fin 4) (s : Fin 4096) : EReal := res_main_v11 V0 (ix2 b s)
abbrev a23 (b : Fin 4) (s : Fin 4096) : EReal := res_main_v23 V0 (ix2 b s)
abbrev a35 (b : Fin 4) (s : Fin 4096) : EReal := res_main_v35 V0 (ix2 b s)

/-- `exp (x − max x)` along the row. -/
theorem v6_apply (b : Fin 4) (s : Fin 4096) (k : Fin 512) :
    res_main_v6 V0 (ix3 b s k) = Ideal.exp (xrow V0 b s k - Cert.Row.rowMax (xrow V0 b s)) := by
  unfold res_main_v6
  exact expSubMax_apply _ b s k

/-- The softmax. -/
theorem v10_apply (b : Fin 4) (s : Fin 4096) (k : Fin 512) :
    res_main_v10 V0 (ix3 b s k) = prow V0 b s k := by
  unfold res_main_v10
  refine (divSum_apply _ b s k).trans ?_
  rw [v6_apply]
  refine congrArg (Ideal.div _) ?_
  exact Finset.sum_congr rfl fun k' _ => v6_apply V0 b s k'

/-- The Newton start. -/
theorem v11_apply (b : Fin 4) (s : Fin 4096) : res_main_v11 V0 (ix2 b s) = ((16 : ℝ) : EReal) := by
  unfold res_main_v11
  rw [bc0_2_apply, constant_apply, Cert.Consts.ofBits_16]

/-- One Newton step written over arrays is `Cert.Row.newton` of the row, whenever the array `E` is `exp (−α · p)`
    along the row and `P` is `p`. -/
theorem newton_of (a : FVec Ideal S4x4096 .f32) (E P : FVec Ideal S4x4096x512 .f32) (b : Fin 4) (s : Fin 4096)
    (p : Fin 512 → EReal) (hP : ∀ k, P (ix3 b s k) = p k)
    (hE : ∀ k, E (ix3 b s k) = Ideal.exp ((-(a (ix2 b s))) * p k)) :
    addf a (Host.divf
        (addf (Host.reduceAdd E (constant S_ .f32 0x00000000#32) reducesTo_S4x4096x512_S4x4096_d2 h_S_)
          (broadcastInDim S4x4096 ![] bcast_S_S4x4096 (constant S_ .f32 0xC3F80000#32)))
        (Host.reduceAdd (mulf E P) (constant S_ .f32 0x00000000#32) reducesTo_S4x4096x512_S4x4096_d2 h_S_)) (ix2 b s)
      = Cert.Row.newton p (a (ix2 b s)) := by
  refine (newtonStep_apply a E P b s).trans ?_
  unfold Cert.Row.newton
  rw [Finset.sum_congr rfl fun k _ => hE k,
    Finset.sum_congr rfl fun k _ => (congrArg₂ (· * ·) (hE k) (hP k) : E (ix3 b s k) * P (ix3 b s k) = _)]

/-- `exp (−16 · p)`. -/
theorem v16_apply (b : Fin 4) (s : Fin 4096) (k : Fin 512) :
    res_main_v16 V0 (ix3 b s k) = Ideal.exp ((-(a11 V0 b s)) * prow V0 b s k) := by
  unfold res_main_v16
  refine (expNeg_apply _ _ b s k).trans ?_
  rw [v10_apply]

/-- The first Newton step. -/
theorem v23_apply (b : Fin 4) (s : Fin 4096) :
    res_main_v23 V0 (ix2 b s) = Cert.Row.newton (prow V0 b s) ((16 : ℝ) : EReal) := by
  unfold res_main_v23
  refine (newton_of _ _ _ b s (prow V0 b s) (v10_apply V0 b s) (v16_apply V0 b s)).trans ?_
  rw [v11_apply]

/-- `exp (−α₁ · p)`. -/
theorem v28_apply (b : Fin 4) (s : Fin 4096) (k : Fin 512) :
    res_main_v28 V0 (ix3 b s k) = Ideal.exp ((-(a23 V0 b s)) * prow V0 b s k) := by
  unfold res_main_v28
  refine (expNeg_apply _ _ b s k).trans ?_
  rw [v10_apply]

/-- The second Newton step. -/
theorem v35_apply (b : Fin 4) (s : Fin 4096) :
    res_main_v35 V0 (ix2 b s)
      = Cert.Row.newton (prow V0 b s) (Cert.Row.newton (prow V0 b s) ((16 : ℝ) : EReal)) := by
  unfold res_main_v35
  refine (newton_of _ _ _ b s (prow V0 b s) (v10_apply V0 b s) (v28_apply V0 b s)).trans ?_
  rw [v23_apply]

/-- `exp (−α₂ · p)`. -/
theorem v40_apply (b : Fin 4) (s : Fin 4096) (k : Fin 512) :
    res_main_v40 V0 (ix3 b s k) = Ideal.exp ((-(a35 V0 b s)) * prow V0 b s k) := by
  unfold res_main_v40
  refine (expNeg_apply _ _ b s k).trans ?_
  rw [v10_apply]

/-- `1 − (1 − p_j)^α`, the third Newton step taken inside. -/
theorem v54_apply (b : Fin 4) (s : Fin 4096) (j : Fin 512) :
    res_main_v54 V0 (ix3 b s j) = Cert.Row.margPow (prow V0 b s) j := by
  unfold res_main_v54
  refine (marg_apply _ _ b s j).trans ?_
  rw [v10_apply, newton_of _ _ _ b s (prow V0 b s) (v10_apply V0 b s) (v40_apply V0 b s), v35_apply]
  rfl

/-- THE REFERENCE'S RESULT AT AN INDEX: entry `i 2` of `Cert.Row.outR` of the four arguments' rows through `i`. -/
theorem result_eq :
      (mulf (V0 (Proc.devRef .tc main_arg1)) (uitofp .f32 (cmpf .olt (V0 (Proc.devRef .tc main_arg2)) (addf (res_main_v54 V0) (subf (mulf (Host.floor (addf (mulf (res_main_v54 V0) (broadcastInDim S4x4096x512 ![] bcast_S_S4x4096x512 (constant S_ .f32 0x42FE0000#32))) (V0 (Proc.devRef .tc main_arg3)))) (broadcastInDim S4x4096x512 ![] bcast_S_S4x4096x512 (constant S_ .f32 0x3C010204#32))) (res_main_v54 V0))))) : FVec Ideal S4x4096x512 .f32)
      = fun i => Cert.Row.outR (Cert.Row.row3 (V0 (Proc.devRef .tc main_arg0)) i) (Cert.Row.row3 (V0 (Proc.devRef .tc main_arg1)) i)
                   (Cert.Row.row3 (V0 (Proc.devRef .tc main_arg2)) i) (Cert.Row.row3 (V0 (Proc.devRef .tc main_arg3)) i) (i 2) := by
  funext i
  obtain ⟨b, s, j, rfl⟩ : ∃ (b : Fin 4) (s : Fin 4096) (j : Fin 512), i = ix3 b s j := ⟨i 0, i 1, i 2, eq_ix3 i⟩
  refine (final_apply _ _ _ _ b s j).trans ?_
  rw [v54_apply]
  rfl

end Cert.RefRow

end
-- ==== Proof.RowMath.lean ====
/-
  The two spellings of a row agree on every row of finite scores.

  With every score a real number, each quantity along the way is a real number: the row maximum (a fold of `max`
  over a nonempty row of reals), the exponentials and their positive sum, the softmax probabilities `p k` (each
  strictly between 0 and 1 when the row has at least two entries), and the three Newton iterates for `α` (each
  step divides by a positive sum).  For a positive real base `r = 1 − p j` and a real exponent `a` the power
  function is `exp (log r · a)`, so the two spellings of the marginal agree and are a real number `m`; for a real
  `m` and any extended real `y`, `m + (y − m) = y`; and a one-bit word read signed after zero-extension, or read
  unsigned, is the same number.
-/
import proofs.«125657_j27633819582789_1_alg».proof.Proof.RowSpec

noncomputable section

namespace Cert.Row

open Idealize.ShloMosaic

variable {n : Nat}

/-! ### Sums and quotients of reals inside the extended reals -/

/-- A finite sum of reals, taken in the extended reals, is the real sum. -/
theorem coe_sum_real (s : Finset (Fin n)) (f : Fin n → ℝ) :
    (∑ k ∈ s, ((f k : ℝ) : EReal)) = ((∑ k ∈ s, f k : ℝ) : EReal) := by
  induction s using Finset.induction_on with
  | empty => simp
  | insert a s ha ih => rw [Finset.sum_insert ha, Finset.sum_insert ha, ih, EReal.coe_add]

/-- The quotient of two reals, the divisor not zero, is the real quotient. -/
theorem div_real (a b : ℝ) (hb : b ≠ 0) : Ideal.div (a : EReal) (b : EReal) = ((a / b : ℝ) : EReal) := by
  rw [Ideal.div_coe hb, ← EReal.coe_mul, mul_one_div]

/-! ### The row maximum of a nonempty row of reals is a real -/

theorem rowMax_real (hn : 0 < n) (x : Fin n → ℝ) :
    ∃ M : ℝ, rowMax (fun k => ((x k : ℝ) : EReal)) = (M : EReal) := by
  have htop : rowMax (fun k => ((x k : ℝ) : EReal)) ≠ ⊤ := by
    apply ne_of_lt
    unfold rowMax
    rw [Finset.fold_max_lt]
    exact ⟨bot_lt_top, fun k _ => EReal.coe_lt_top (x k)⟩
  have hbot : rowMax (fun k => ((x k : ℝ) : EReal)) ≠ ⊥ := by
    apply ne_of_gt
    unfold rowMax
    rw [Finset.lt_fold_max]
    exact Or.inr ⟨⟨0, hn⟩, Finset.mem_univ _, EReal.bot_lt_coe _⟩
  exact ⟨_, (EReal.coe_toReal htop hbot).symm⟩

/-! ### The softmax of a row of at least two reals: reals strictly between 0 and 1 -/

theorem prob_real (hn : 2 ≤ n) (x : Fin n → ℝ) :
    ∃ p : Fin n → ℝ, (∀ k, 0 < p k) ∧ (∀ k, p k < 1) ∧
      prob (fun k => ((x k : ℝ) : EReal)) = fun k => ((p k : ℝ) : EReal) := by
  obtain ⟨M, hM⟩ := rowMax_real (by omega : 0 < n) x
  -- the exponentials and their sum
  have he : ∀ k, Ideal.exp (((x k : ℝ) : EReal) - rowMax (fun k => ((x k : ℝ) : EReal)))
      = ((Real.exp (x k - M) : ℝ) : EReal) := by
    intro k
    rw [hM, ← EReal.coe_sub, Ideal.exp_coe]
  have hS : (∑ k, Ideal.exp (((x k : ℝ) : EReal) - rowMax (fun k => ((x k : ℝ) : EReal))))
      = ((∑ k, Real.exp (x k - M) : ℝ) : EReal) := by
    rw [← coe_sum_real]
    exact Finset.sum_congr rfl (fun k _ => he k)
  have hpos : ∀ k, 0 < Real.exp (x k - M) := fun k => Real.exp_pos _
  have hSpos : 0 < ∑ k, Real.exp (x k - M) :=
    Finset.sum_pos (fun k _ => hpos k) ⟨⟨0, by omega⟩, Finset.mem_univ _⟩
  refine ⟨fun k => Real.exp (x k - M) / ∑ i, Real.exp (x i - M), ?_, ?_, ?_⟩
  · intro k
    exact div_pos (hpos k) hSpos
  · intro k
    rw [div_lt_one hSpos]
    -- the sum is this term plus the sum of the others, and there is at least one other
    have hsplit : Real.exp (x k - M) + ∑ i ∈ Finset.univ.erase k, Real.exp (x i - M)
        = ∑ i, Real.exp (x i - M) := Finset.add_sum_erase Finset.univ (fun i => Real.exp (x i - M)) (Finset.mem_univ k)
    have hne : (Finset.univ.erase k : Finset (Fin n)).Nonempty := by
      rw [← Finset.card_pos, Finset.card_erase_of_mem (Finset.mem_univ k), Finset.card_univ, Fintype.card_fin]
      omega
    have hrest : 0 < ∑ i ∈ Finset.univ.erase k, Real.exp (x i - M) :=
      Finset.sum_pos (fun i _ => hpos i) hne
    linarith
  · funext k
    unfold prob
    rw [he k, hS]
    exact div_real _ _ hSpos.ne'

/-! ### One Newton step keeps a real; so do three -/

theorem newton_real (hn : 0 < n) (p : Fin n → ℝ) (hp : ∀ k, 0 < p k) (a : ℝ) :
    ∃ a' : ℝ, newton (fun k => ((p k : ℝ) : EReal)) (a : EReal) = (a' : EReal) := by
  have he : ∀ k, Ideal.exp ((-(a : EReal)) * ((p k : ℝ) : EReal)) = ((Real.exp ((-a) * p k) : ℝ) : EReal) := by
    intro k
    rw [← EReal.coe_neg, ← EReal.coe_mul, Ideal.exp_coe]
  have hN : (∑ k, Ideal.exp ((-(a : EReal)) * ((p k : ℝ) : EReal)))
      = ((∑ k, Real.exp ((-a) * p k) : ℝ) : EReal) := by
    rw [← coe_sum_real]
    exact Finset.sum_congr rfl (fun k _ => he k)
  have hD : (∑ k, Ideal.exp ((-(a : EReal)) * ((p k : ℝ) : EReal)) * ((p k : ℝ) : EReal))
      = ((∑ k, Real.exp ((-a) * p k) * p k : ℝ) : EReal) := by
    rw [← coe_sum_real]
    refine Finset.sum_congr rfl (fun k _ => ?_)
    rw [he k, ← EReal.coe_mul]
  have hDpos : 0 < ∑ k, Real.exp ((-a) * p k) * p k :=
    Finset.sum_pos (fun k _ => mul_pos (Real.exp_pos _) (hp k)) ⟨⟨0, hn⟩, Finset.mem_univ _⟩
  refine ⟨a + ((∑ k, Real.exp ((-a) * p k)) + (-496)) / (∑ k, Real.exp ((-a) * p k) * p k), ?_⟩
  unfold newton
  rw [hN, hD, ← EReal.coe_add, div_real _ _ hDpos.ne', ← EReal.coe_add]

theorem alpha_real (hn : 0 < n) (p : Fin n → ℝ) (hp : ∀ k, 0 < p k) :
    ∃ a : ℝ, alpha (fun k => ((p k : ℝ) : EReal)) = (a : EReal) := by
  obtain ⟨a1, h1⟩ := newton_real hn p hp 16
  obtain ⟨a2, h2⟩ := newton_real hn p hp a1
  obtain ⟨a3, h3⟩ := newton_real hn p hp a2
  exact ⟨a3, by unfold alpha; rw [h1, h2, h3]⟩

/-! ### The two spellings of the power agree on a positive real base and a real exponent -/

theorem marg_real (hn : 0 < n) (p : Fin n → ℝ) (hp : ∀ k, 0 < p k) (j : Fin n) (hj : p j < 1) :
    ∃ m : ℝ, margLog (fun k => ((p k : ℝ) : EReal)) j = (m : EReal) ∧
      margPow (fun k => ((p k : ℝ) : EReal)) j = (m : EReal) := by
  obtain ⟨a, ha⟩ := alpha_real hn p hp
  have hr : 0 < 1 - p j := by linarith
  have hbase : (1 : EReal) - ((p j : ℝ) : EReal) = ((1 - p j : ℝ) : EReal) := by
    rw [← EReal.coe_one, ← EReal.coe_sub]
  refine ⟨1 - Real.exp (a * Real.log (1 - p j)), ?_, ?_⟩
  · unfold margLog
    rw [ha, hbase, Ideal.log_coe, if_neg (not_le.mpr hr), ← EReal.coe_mul, Ideal.exp_coe, ← EReal.coe_one,
      ← EReal.coe_sub]
  · unfold margPow
    rw [ha, hbase, Ideal.pow_coe_coe]
    have hpow : Real.rpow (1 - p j) a = Real.exp (a * Real.log (1 - p j)) := by
      rw [mul_comm]
      exact Real.rpow_def_of_pos hr a
    rw [hpow, ← EReal.coe_one, ← EReal.coe_sub]

/-! ### Adding back what was subtracted, and reading one bit -/

/-- For a real `m` and any extended real `y`, `m + (y − m) = y`. -/
theorem add_sub_cancel_real (m : ℝ) (y : EReal) : (m : EReal) + (y - (m : EReal)) = y := by
  induction y using EReal.rec with
  | bot => rw [EReal.bot_sub, EReal.add_bot]
  | coe r => rw [← EReal.coe_sub, ← EReal.coe_add, add_sub_cancel]
  | top => rw [EReal.top_sub_coe, EReal.add_top_of_ne_bot (EReal.coe_ne_bot m)]

/-- One bit, zero-extended to a word and read signed, is the bit read unsigned. -/
theorem bit_toInt_eq_toNat (b : BitVec 1) : (((b.setWidth 32).toInt : ℤ) : ℝ) = ((b.toNat : ℕ) : ℝ) := by
  rcases BitVec.eq_zero_or_eq_one b with h | h <;> subst h <;> simp

/-! ### The two rows agree -/

theorem out_agree (hn : 2 ≤ n) (x : Fin n → ℝ) (v u d : Fin n → EReal) (j : Fin n) :
    outK (fun k => ((x k : ℝ) : EReal)) v u d j = outR (fun k => ((x k : ℝ) : EReal)) v u d j := by
  obtain ⟨p, hp0, hp1, hp⟩ := prob_real hn x
  obtain ⟨m, hL, hP⟩ := marg_real (by omega : 0 < n) p hp0 j (hp1 j)
  unfold outK outR
  rw [hp, hL, hP, add_sub_cancel_real, bit_toInt_eq_toNat]

end Cert.Row

end
-- ==== Proof.Finite.lean ====
/-
  From the precondition to the one fact the argument uses: every score is a real number.

  The precondition is the conjunction of four "all entries finite" tests, one per argument array, each the `and` over
  the whole array of `|x| < +∞`.  On the extended reals `|x| = max x (−x)` is `+∞` at both infinities, so the test at an
  entry says that the entry is neither; only the first conjunct, on the scores, is needed.
-/
import proofs.«125657_j27633819582789_1_alg».proof.Pre_finite_inputs
import proofs.«125657_j27633819582789_1_alg».proof.Proof.Gen.Pre_finite_inputs
import proofs.«125657_j27633819582789_1_alg».proof.Proof.Consts
import Idealize.ShloMosaic.Lib.ReduceAll
import Idealize.ShloMosaic.Lib.ValueIdx
import Idealize.ShloMosaic.Lib.Affine

noncomputable section

namespace Cert.Finite

open Cert.Pre_finite_inputs Cert.Pre_finite_inputs.Facts Idealize.ShloMosaic

/-- The scalar shape has one index. -/
instance : Subsingleton S_.Idx := ⟨fun _ _ => funext fun d => d.elim0⟩

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Under the precondition every entry of the first argument array (the scores) is a real number. -/
theorem scores_real (a0 a1 a2 a3 : FVec Ideal S4x4096x512 .f32)
    (h : fn (F := Ideal) a0 a1 a2 a3 = fun _ => 1#1) (i : S4x4096x512.Idx) : ∃ r : ℝ, a0 i = (r : EReal) := by
  have h0 := congrFun h ValueIdx.ix0
  dsimp only [fn, fn_part1] at h0
  have h1 := (IntOp.andi_eq_one.1 h0).1
  have h2 := (IntOp.andi_eq_one.1 h1).1
  have h3 := (IntOp.andi_eq_one.1 h2).1
  have h4 := Host.reduce_andi_all _ _ _ _ _ h3 i
  have h5 : Ideal.cmp .olt (max (a0 i) (-(a0 i))) (Ideal.ofBits .f32 0x7F800000#32) = 1#1 := h4
  rw [Cert.Consts.ofBits_pos_inf] at h5
  refine real_of_abs_lt_top _ ?_
  by_contra hn
  have : Ideal.cmp .olt (max (a0 i) (-(a0 i))) ⊤ = 0#1 := by
    unfold Ideal.cmp
    simp [hn]
  rw [this] at h5
  exact absurd h5 (by decide)

end Cert.Finite

end
-- ==== Proof.lean ====
/-
  The certificate: a sampling bottleneck, computed row by row, against its plain array reference.

  Both programs take four f32[4, 4096, 512] arrays — scores, values and two arrays of uniform draws — and compute, for
  each of the 4·4096 rows of 512 entries independently: the softmax `p` of the scores; three Newton steps from 16
  towards the `α` with `Σₖ (1 − exp (−α pₖ)) = 16`; the marginals `m_j = 1 − (1 − p_j)^α`; their stochastic rounding
  `y_j = ⌊127 m_j + d_j⌋ · f32(1/127)`; and the values masked by `[u_j < y_j]` (Proof/RowSpec.lean).  The kernel runs on
  a 4 × 8 grid of blocks of 512 whole rows, writes the power as `exp (α · log (1 − p_j))` and compares with `y_j`; the
  reference works on whole arrays, uses the power function and compares with `m_j + (y_j − m_j)`.

  On the extended reals the two agree wherever the scores are finite, which the precondition gives
  (Proof/Finite.lean): then every `p_j` is a real strictly between 0 and 1 and every iterate of `α` is a real, so the
  two spellings of the power are the same real `exp (α log (1 − p_j))`, the marginal `m_j` is a real, and adding back
  what was subtracted from a real changes nothing (Proof/RowMath.lean).  The kernel's result array is the first
  spelling, row by row (Proof/KernelRow.lean, Proof/KernelValue.lean: from the blocks to the array); the reference's is the
  second (Proof/RefOps.lean, Proof/RefRow.lean).  The three frames are the programs' runs with the results dropped; no
  operation of the kernel was rewritten for the exact reading, so there is nothing to preserve.
-/
import proofs.«125657_j27633819582789_1_alg».proof.Defs
import proofs.«125657_j27633819582789_1_alg».proof.Proof.Gen.Kernel
import proofs.«125657_j27633819582789_1_alg».proof.Proof.Gen.Kernel.Frame
import proofs.«125657_j27633819582789_1_alg».proof.Proof.Gen.KernelIdeal
import proofs.«125657_j27633819582789_1_alg».proof.Proof.Gen.KernelIdeal.Frame
import proofs.«125657_j27633819582789_1_alg».proof.Proof.Gen.ReferenceIdeal
import proofs.«125657_j27633819582789_1_alg».proof.Proof.Gen.ReferenceIdeal.Run
import proofs.«125657_j27633819582789_1_alg».proof.Proof.Gen.Pre_finite_inputs
import proofs.«125657_j27633819582789_1_alg».proof.Proof.KernelValue
import proofs.«125657_j27633819582789_1_alg».proof.Proof.RefRow
import proofs.«125657_j27633819582789_1_alg».proof.Proof.RowMath
import proofs.«125657_j27633819582789_1_alg».proof.Proof.Finite

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On arrays whose scores are all real numbers, the second spelling of the row function, row by row, is the kernel's
    whole-array function: the two spellings agree on every row of finite scores. -/
theorem rows_agree (a0 a1 a2 a3 : Cert.KernelIdeal.S4x4096x512.Idx → EReal) (hreal : ∀ i, ∃ r : ℝ, a0 i = (r : EReal)) :
    (fun i => Cert.Row.outR (Cert.Row.row3 a0 i) (Cert.Row.row3 a1 i) (Cert.Row.row3 a2 i) (Cert.Row.row3 a3 i) (i 2))
      = Cert.KernelValue.G a0 a1 a2 a3 := by
  funext i
  unfold Cert.KernelValue.G
  have hx : Cert.Row.row3 a0 i = fun k => (((a0 (ValueIdx.ix3 (i 0) (i 1) k)).toReal : ℝ) : EReal) := by
    funext k
    obtain ⟨r, hr⟩ := hreal (ValueIdx.ix3 (i 0) (i 1) k)
    show a0 (ValueIdx.ix3 (i 0) (i 1) k) = _
    rw [hr, EReal.toReal_coe]
  rw [hx]
  exact (Cert.Row.out_agree (by norm_num) _ _ _ _ _).symm

/-- From memories that agree on the arguments, with finite inputs: the kernel's array ends at the row function of the
    arguments' rows (first spelling), the reference's at the second spelling of the same rows; the spellings agree. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  have e0 : StableHlo.launchContents m' c (Proc.devRef .tc Cert.ReferenceIdeal.main_arg0)
      = m ((c.tc : Thread Cert.KernelIdeal.nD Cert.KernelIdeal.τ).loc Cert.KernelIdeal.main_arg0) := (hagree c).1
  have e1 : StableHlo.launchContents m' c (Proc.devRef .tc Cert.ReferenceIdeal.main_arg1)
      = m ((c.tc : Thread Cert.KernelIdeal.nD Cert.KernelIdeal.τ).loc Cert.KernelIdeal.main_arg1) := (hagree c).2.1
  have e2 : StableHlo.launchContents m' c (Proc.devRef .tc Cert.ReferenceIdeal.main_arg2)
      = m ((c.tc : Thread Cert.KernelIdeal.nD Cert.KernelIdeal.τ).loc Cert.KernelIdeal.main_arg2) := (hagree c).2.2.1
  have e3 : StableHlo.launchContents m' c (Proc.devRef .tc Cert.ReferenceIdeal.main_arg3)
      = m ((c.tc : Thread Cert.KernelIdeal.nD Cert.KernelIdeal.τ).loc Cert.KernelIdeal.main_arg3) := (hagree c).2.2.2
  rw [Cert.RefRow.result_eq, e0, e1, e2, e3]
  exact rows_agree _ _ _ _ (fun i => Cert.Finite.scores_real _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
